-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S10000x128 : Shape := ⟨2, ![10000, 128]⟩
abbrev S10000x64 : Shape := ⟨2, ![10000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S10000x1 : Shape := ⟨2, ![10000, 1]⟩
abbrev S1x64 : Shape := ⟨2, ![1, 64]⟩

abbrev nBuf : Space → Nat
  | .hbm => 62
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x1, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  shapeCasts_S10000x64_S10000x64 : S10000x64.ShapeCasts S10000x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1700000x64.size a
  hwx1_0 : ∀ i : grid1.Coords, EltTy.bits .f32 = 32 ∨ (Rect.block (s := S1700000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1700000x64.size a
  hwx1_2 : ∀ i : grid1.Coords, EltTy.bits .f32 = 32 ∨ (Rect.block (s := S1700000x64) S10000x64.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x1, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result buffer named.

  The program is two pipelined regions among four stretches of host operations. Each boundary between segments has
  a known memory: the launch memory, then after each region its arrays replaced by what the pipeline's write-backs
  leave, and after each host stretch the stretch's operations applied. The run over these segments ends with every
  unscoped buffer at the last boundary's contents; read there at the result buffer as well as at the four arguments,
  it says that every weakly fair execution terminates with the result at that last memory's value and the
  arguments unchanged.
-/
import proofs.«163691_j3607772529056_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the value the
    last segment boundary's memory gives it and the four argument arrays as launched. -/
theorem run_named : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Result

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.Product.lean ====
/-
  The first region computes the product x·W, ten thousand rows at a time.

  Grid point t holds rows 10000·t … 10000·t + 9999 of x and the whole of W, multiplies them on the matrix unit into a
  zero accumulator (the operands first narrowed to a shorter float format, which changes nothing on the extended
  reals) and writes the [10000, 64] result back as the same rows of the output. Entry (p, o) of that block is the sum
  over k of x(10000·t + p, k) · W(k, o), which is entry (10000·t + p, o) of the host's contraction of x with W; the ten
  blocks tile the output's 100000 rows, so after the region the output array is that contraction.
-/
import proofs.«163691_j3607772529056_2_alg».proof.Proof.Gen.KernelIdeal.Frame
import proofs.«163691_j3607772529056_2_alg».proof.ReferenceIdeal
import proofs.«163691_j3607772529056_2_alg».proof.Proof.Gen.ReferenceIdeal
import proofs.«163691_j3607772529056_2_alg».proof.Proof.LibPlainDot
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Product

open Cert.KernelIdeal Cert.KernelIdeal.Gen

/-- The contraction of an [100000, 128] matrix with a [128, 64] matrix, as the host computes it. -/
abbrev times (X : FVec Ideal S100000x128 .f32) (Wt : FVec Ideal S128x64 .f32) : FVec Ideal S100000x64 .f32 :=
  Host.dotGeneral (F := Ideal) Cert.ReferenceIdeal.dot_S100000x128_S128x64_S100000x64_1_0_0_1_n_n none X Wt

theorem hz : (![0, 0] : Fin 2 → Nat) = fun _ => 0 := funext fun a => by fin_cases a <;> rfl

/-- One block: if the block's left operand x0 holds rows r·10000 … of X and its right operand is Wt, then entry j of
    the block's product is entry i of X·Wt, for i the same entry counted in the whole array. -/
theorem block_times (X : FVec Ideal S100000x128 .f32) (Wt : FVec Ideal S128x64 .f32)
    (x0 : Vec Ideal S10000x128 .f32) (x1 : Vec Ideal S128x64 .f32) (j : S10000x64.Idx) (i : S100000x64.Idx) (r : ℕ)
    (hi0 : (i 0).val = r * 10000 + (j 0).val) (hi1 : (i 1).val = (j 1).val)
    (hx0 : ∀ (y : S10000x128.Idx) (z : S100000x128.Idx), (z 0).val = r * 10000 + (y 0).val → (z 1).val = (y 1).val → x0 y = X z)
    (hx1 : x1 = Wt) :
    k0_pay1 (F := Ideal) x0 x1 j = times X Wt i := by
  subst hx1
  obtain ⟨p, o, rfl⟩ : ∃ (p : Fin 10000) (o : Fin 64), j = ix2 p o := ⟨j 0, j 1, eq_ix2 j⟩
  obtain ⟨q, o', rfl⟩ : ∃ (q : Fin 100000) (o' : Fin 64), i = ix2 q o' := ⟨i 0, i 1, eq_ix2 i⟩
  obtain rfl : o' = o := Fin.ext hi1
  unfold k0_pay1
  refine (Cert.LibPlainDot.matmul_zero_apply dot_S10000x128_S128x64_S10000x64_1_0_0_1_n_n rfl rfl rfl rfl rfl rfl none _ _ p o').trans ?_
  refine Eq.trans ?_ (Cert.LibPlainDot.dotGeneral_apply Cert.ReferenceIdeal.dot_S100000x128_S128x64_S100000x64_1_0_0_1_n_n rfl rfl rfl rfl rfl rfl none .single X x1 q o').symm
  refine Finset.sum_congr rfl fun k _ => ?_
  show x0 (ix2 p k) * x1 (ix2 k o') = X (ix2 q k) * x1 (ix2 k o')
  rw [hx0 (ix2 p k) (ix2 q k) hi0 rfl]

section Region

variable (V : (c : Dev nD) → (b : Ref sig .tc) → Buf (Elt Ideal) ((c : Thread nD τ).loc b))

/-- The printed index maps, decided over the ten grid points: the left operand's and the output's blocks are block
    row t, the right operand's is the whole matrix. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of X·W, X and W the arrays the region finds. -/
theorem flushed_eq (c : Dev nD) (t : Fin cfg0.N) :
    (dat0 V c).flushed 2 t = ((cfg0.win 2).blk t).view.read (Elt Ideal) (times (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  show k0_pay1 (iblk0 V c 0 t) (iblk0 V c 1 t) j = times (V c main_arg0) (V c main_arg2) (((cfg0.win 2).blk t).view.emb j)
  refine block_times (V c main_arg0) (V c main_arg2) (iblk0 V c 0 t) (iblk0 V c 1 t) j (((cfg0.win 2).blk t).view.emb j) t.val ?_ ?_ ?_ ?_
  · show win0_2.index t (0 : Fin 2) * 10000 + 1 * (j 0).val = t.val * 10000 + (j 0).val
    rw [e4]; omega
  · show win0_2.index t (1 : Fin 2) * 64 + 1 * (j 1).val = (j 1).val
    rw [e5]; omega
  · intro y z hz0 hz1
    show V c main_arg0 (((cfg0.win 0).blk t).view.emb y) = V c main_arg0 z
    refine congrArg _ (funext fun a => Fin.ext ?_)
    match a with
    | ⟨0, _⟩ => show win0_0.index t (0 : Fin 2) * 10000 + 1 * (y 0).val = (z 0).val; rw [e0, hz0]; omega
    | ⟨1, _⟩ => show win0_0.index t (1 : Fin 2) * 128 + 1 * (y 1).val = (z 1).val; rw [e1, hz1]; omega
  · funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; rw [e2]; omega
    | ⟨1, _⟩ => show win0_1.index t (1 : Fin 2) * 64 + 1 * (y 1).val = (y 1).val; rw [e3]; omega

/-- An index of the output is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row r of the output lies in the block of grid point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < cfg0.N := by show (i 0).val / 10000 < grid0.N; rw [hN]; omega
  obtain ⟨e0, e1, e2, e3, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- After the region its output array holds X·W. -/
theorem final (c : Dev nD) : (dat0 V c).arrAt 2 cfg0.N = times (V c main_arg0) (V c main_arg2) :=
  (dat0 V c).arrAt_eq_of_cover 2 (times (V c main_arg0) (V c main_arg2)) (fun t _ => flushed_eq V c t) (cover)

end Region

end Cert.KernelIdeal.Product

end
-- ==== Proof.Layer.lean ====
/-
  The graph-convolution layer as one function of its four arguments.

  Nodes 0 … N−1 (N = 100000) carry feature rows x; the edge list has E = 1600000 edges (row 0 the source nodes, row 1
  the target nodes), to which one self loop per node is appended, T = E + N = 1700000 edges in all. With
  deg(i) the number of edges whose target is i, and d(i) = deg(i)^(−1/2) where deg(i) > 0 and 0 elsewhere, the layer is

      out(i, ·) = b + Σ over edges e with target i of  (x·W)(source e, ·) · d(source e) · d(target e).

  The pieces below are that formula spelt with the host operations both programs use (slices, an iota, a
  concatenation, scatter-adds, gathers, broadcasts), so that each program's result is literally an instance of
  `layer`: they differ only in how the product x·W and the per-edge scaling are produced, and those two are
  arguments here (`sourceRows` takes the product, `aggregate` takes the scaled messages).
-/
import proofs.«163691_j3607772529056_2_alg».proof.KernelIdeal
import proofs.«163691_j3607772529056_2_alg».proof.ReferenceIdeal

noncomputable section

namespace Cert.Layer

open Idealize.ShloMosaic Cert.KernelIdeal

variable {F : FTy → Type} [FloatOps F] [Cert.KernelIdeal.Facts₀] [Cert.ReferenceIdeal.Facts₀]

open Cert.KernelIdeal.Facts₀

/-- The edges' source nodes: row 0 of the edge list, then every node once (the self loops). -/
def src (ei : (⟨S2x1600000, .i32⟩ : BufTy).Contents (Elt F)) : (⟨S1700000, .i32⟩ : BufTy).Contents (Elt F) :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' target nodes: row 1 of the edge list, then every node once. -/
def dst (ei : (⟨S2x1600000, .i32⟩ : BufTy).Contents (Elt F)) : (⟨S1700000, .i32⟩ : BufTy).Contents (Elt F) :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A node number counted from the end when it is negative: v + N where v < 0, v elsewhere. -/
def fromEnd (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- deg: the number of edges into each node, as a float sum of ones scattered to the edges' targets. -/
def degree (ei : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dst ei))
    (broadcastInDim S1700000 ![] bcast_S_S1700000 (constant S_ .f32 0x3F800000#32))

/-- d: deg^(−1/2) where deg > 0, zero elsewhere. -/
def invSqrtDegree (ei : (⟨S2x1600000, .i32⟩ : BufTy).Contents (Elt F)) : (⟨S100000, .f32⟩ : BufTy).Contents (Elt F) :=
  select (cmpf (F := F) .ogt (degree ei) (broadcastInDim S100000 ![] bcast_S_S100000 (constant S_ .f32 0x00000000#32)))
    (Host.rsqrt (degree ei)) (broadcastInDim S100000 ![] bcast_S_S100000 (constant S_ .f32 0x00000000#32))

/-- The weight of each edge, d(source) · d(target). -/
def edgeWeight (ei : (⟨S2x1600000, .i32⟩ : BufTy).Contents (Elt F)) : (⟨S1700000, .f32⟩ : BufTy).Contents (Elt F) :=
  mulf (Host.gather gather_S100000_S1700000x1_S1700000_n_0_n_n_0_1_1 (invSqrtDegree ei) (broadcastInDim S1700000x1 ![0] bcast_S1700000_S1700000x1_0 (fromEnd (src ei))))
    (Host.gather gather_S100000_S1700000x1_S1700000_n_0_n_n_0_1_1 (invSqrtDegree ei) (broadcastInDim S1700000x1 ![0] bcast_S1700000_S1700000x1_0 (fromEnd (dst ei))))

/-- The edge weights as a column [T, 1]. -/
def edgeWeightColumn (ei : (⟨S2x1600000, .i32⟩ : BufTy).Contents (Elt F)) : (⟨S1700000x1, .f32⟩ : BufTy).Contents (Elt F) :=
  broadcastInDim S1700000x1 ![0] bcast_S1700000_S1700000x1_0 (edgeWeight ei)

/-- Row e is row (source e) of the transformed features xw. -/
def sourceRows (ei : (⟨S2x1600000, .i32⟩ : BufTy).Contents (Elt F)) (xw : (⟨S100000x64, .f32⟩ : BufTy).Contents (Elt F)) :
    (⟨S1700000x64, .f32⟩ : BufTy).Contents (Elt F) :=
  Host.gather gather_S100000x64_S1700000x1_S1700000x64_1_0_n_n_0_1_164 xw (broadcastInDim S1700000x1 ![0] bcast_S1700000_S1700000x1_0 (fromEnd (src ei)))

/-- Each edge's row scaled by the edge's weight, the weight column spread over the 64 features. -/
def messages (rows : (⟨S1700000x64, .f32⟩ : BufTy).Contents (Elt F)) (w : (⟨S1700000x1, .f32⟩ : BufTy).Contents (Elt F)) :
    (⟨S1700000x64, .f32⟩ : BufTy).Contents (Elt F) :=
  mulf rows (broadcastInDim S1700000x64 ![0, 1] Cert.ReferenceIdeal.Facts₀.bcast_S1700000x1_S1700000x64_0_1 w)

/-- The messages summed into their target nodes, plus the bias row on every node. -/
def aggregate (targets : (⟨S1700000, .i32⟩ : BufTy).Contents (Elt F)) (b : (⟨S64, .f32⟩ : BufTy).Contents (Elt F))
    (msgs : (⟨S1700000x64, .f32⟩ : BufTy).Contents (Elt F)) : (⟨S100000x64, .f32⟩ : BufTy).Contents (Elt F) :=
  addf (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 targets) msgs)
    (broadcastInDim S100000x64 ![0, 1] bcast_S1x64_S100000x64_0_1 (broadcastInDim S1x64 ![1] bcast_S64_S1x64_1 b))

/-- The layer. -/
def layer (x : (⟨S100000x128, .f32⟩ : BufTy).Contents (Elt F)) (ei : (⟨S2x1600000, .i32⟩ : BufTy).Contents (Elt F))
    (W : (⟨S128x64, .f32⟩ : BufTy).Contents (Elt F)) (b : (⟨S64, .f32⟩ : BufTy).Contents (Elt F)) :
    (⟨S100000x64, .f32⟩ : BufTy).Contents (Elt F) :=
  aggregate (dst ei) b (messages
    (sourceRows ei (Host.dotGeneral Cert.ReferenceIdeal.dot_S100000x128_S128x64_S100000x64_1_0_0_1_n_n none x W))
    (edgeWeightColumn ei))

end Cert.Layer

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.Scaling.lean ====
/-
  The second region scales each edge's row by the edge's weight, ten thousand edges at a time.

  Grid point t holds rows 10000·t … 10000·t + 9999 of the gathered rows (a [10000, 64] block) and of the weight
  column (a [10000, 1] block), spreads the column over the 64 features and multiplies entry by entry. Entry (p, o) of
  what it writes back is rows(10000·t + p, o) · w(10000·t + p, 0), which is entry (10000·t + p, o) of the host's
  product of the rows with the weight column spread over the features; the 170 blocks tile the 1700000 edges, so after
  the region the output array is that product.
-/
import proofs.«163691_j3607772529056_2_alg».proof.Proof.Gen.KernelIdeal.Frame
import proofs.«163691_j3607772529056_2_alg».proof.Proof.Gen.ReferenceIdeal
import proofs.«163691_j3607772529056_2_alg».proof.Proof.Layer
import proofs.«163691_j3607772529056_2_alg».proof.Proof.LibKeepdims
import proofs.«163691_j3607772529056_2_alg».proof.Proof.LibBroadcastInDim
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scaling

open Cert.KernelIdeal Cert.KernelIdeal.Gen

theorem hz : (![0, 0] : Fin 2 → Nat) = fun _ => 0 := funext fun a => by fin_cases a <;> rfl

/-- One block: if the block's rows r0 are rows r·10000 … of R and its weights w0 are the same rows of the column Wc,
    then entry j of the block's product is entry i of the whole arrays' product, i the same entry counted in the
    whole array. -/
theorem block_scaled (R : Vec Ideal S1700000x64 .f32) (Wc : Vec Ideal S1700000x1 .f32)
    (w0 : Vec Ideal S10000x1 .f32) (r0 : Vec Ideal S10000x64 .f32) (j : S10000x64.Idx) (i : S1700000x64.Idx) (r : ℕ)
    (hi0 : (i 0).val = r * 10000 + (j 0).val) (hi1 : (i 1).val = (j 1).val)
    (hr : ∀ (y : S10000x64.Idx) (z : S1700000x64.Idx), (z 0).val = r * 10000 + (y 0).val → (z 1).val = (y 1).val → r0 y = R z)
    (hw : ∀ (y : S10000x1.Idx) (z : S1700000x1.Idx), (z 0).val = r * 10000 + (y 0).val → w0 y = Wc z) :
    k1_pay1 (F := Ideal) w0 r0 j = Cert.Layer.messages (F := Ideal) R Wc i := by
  obtain ⟨p, o, rfl⟩ : ∃ (p : Fin 10000) (o : Fin 64), j = ix2 p o := ⟨j 0, j 1, eq_ix2 j⟩
  obtain ⟨q, o', rfl⟩ : ∃ (q : Fin 1700000) (o' : Fin 64), i = ix2 q o' := ⟨i 0, i 1, eq_ix2 i⟩
  obtain rfl : o' = o := Fin.ext hi1
  unfold k1_pay1 Cert.Layer.messages
  rw [shapeCast_self, shapeCast_self, shapeCast_self]
  show r0 (ix2 p o') * broadcastTo S10000x64 w0 _ (ix2 p o') = R (ix2 q o') * broadcastInDim S1700000x64 ![0, 1] _ Wc (ix2 q o')
  rw [Cert.LibKeepdims.broadcastTo_a1_ab_apply, Cert.LibBroadcastInDim.col_mat_apply]
  rw [hr (ix2 p o') (ix2 q o') hi0 rfl, hw (ix2 p (0 : Fin 1)) (ix2 q (0 : Fin 1)) hi0]

section Region

variable (V : (c : Dev nD) → (b : Ref sig .tc) → Buf (Elt Ideal) ((c : Thread nD τ).loc b))

/-- The printed index maps, decided over the 170 grid points: every window's block is block row t. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What grid point t writes back is block t of the rows scaled by the weight column, both as the region finds them. -/
theorem flushed_eq (c : Dev nD) (t : Fin cfg1.N) :
    (dat1 V c).flushed 2 t = ((cfg1.win 2).blk t).view.read (Elt Ideal) (Cert.Layer.messages (F := Ideal) (V c main_v38) (V c main_v39)) := by
  show (cfg1.win 2).cut (grid1.coords t) ((dat1 V c).after 2 t) = _
  rw [after1_2]
  unfold out1_2
  rw [View.canon_unit_zero hz]
  simp only [View.ld_unit_zero (S := S10000x64) hz, View.ld_unit_zero (S := S10000x1) hz]
  obtain ⟨e0, e1, e2, e3, e4, e5⟩ := idx_facts t
  funext j
  show k1_pay1 (iblk1 V c 1 t) (iblk1 V c 0 t) j = Cert.Layer.messages (F := Ideal) (V c main_v38) (V c main_v39) (((cfg1.win 2).blk t).view.emb j)
  refine block_scaled (V c main_v38) (V c main_v39) (iblk1 V c 1 t) (iblk1 V c 0 t) j (((cfg1.win 2).blk t).view.emb j) t.val ?_ ?_ ?_ ?_
  · show win1_2.index t (0 : Fin 2) * 10000 + 1 * (j 0).val = t.val * 10000 + (j 0).val
    rw [e4]; omega
  · show win1_2.index t (1 : Fin 2) * 64 + 1 * (j 1).val = (j 1).val
    rw [e5]; omega
  · intro y z hz0 hz1
    show V c main_v38 (((cfg1.win 0).blk t).view.emb y) = V c main_v38 z
    refine congrArg _ (funext fun a => Fin.ext ?_)
    match a with
    | ⟨0, _⟩ => show win1_0.index t (0 : Fin 2) * 10000 + 1 * (y 0).val = (z 0).val; rw [e0, hz0]; omega
    | ⟨1, _⟩ => show win1_0.index t (1 : Fin 2) * 64 + 1 * (y 1).val = (z 1).val; rw [e1, hz1]; omega
  · intro y z hz0
    show V c main_v39 (((cfg1.win 1).blk t).view.emb y) = V c main_v39 z
    refine congrArg _ (funext fun a => Fin.ext ?_)
    have hy1 : (y 1).val < 1 := (y 1).isLt
    have hz1 : (z 1).val < 1 := (z 1).isLt
    match a with
    | ⟨0, _⟩ => show win1_1.index t (0 : Fin 2) * 10000 + 1 * (y 0).val = (z 0).val; rw [e2, hz0]; omega
    | ⟨1, _⟩ => show win1_1.index t (1 : Fin 2) * 1 + 1 * (y 1).val = (z 1).val; rw [e3]; omega

/-- An index of the output is in point t's block iff each coordinate is in the block's range on its axis. -/
theorem mem_blk (t : Fin cfg1.N) (i : S1700000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v40).slice (win1_2.rect t)).set ↔ _
  rw [View.set_slice_whole, Rect.mem_set_unit]
  exact Iff.rfl

/-- Edge e lies in the block of grid point e / 10000. -/
theorem cover (i : S1700000x64.Idx) : ∃ t : Fin cfg1.N, (cfg1.win 2).flush t = true ∧ i ∈ ((cfg1.win 2).blk t).view.set := by
  have hi0 : (i 0).val < 1700000 := (i 0).isLt
  have hi1 : (i 1).val < 64 := (i 1).isLt
  have hN : grid1.N = 170 := N_1
  have ht : (i 0).val / 10000 < cfg1.N := by show (i 0).val / 10000 < grid1.N; rw [hN]; omega
  obtain ⟨e0, e1, e2, e3, e4, e5⟩ := idx_facts ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- After the region its output array holds the rows scaled by the weight column. -/
theorem final (c : Dev nD) : (dat1 V c).arrAt 2 cfg1.N = Cert.Layer.messages (F := Ideal) (V c main_v38) (V c main_v39) :=
  (dat1 V c).arrAt_eq_of_cover 2 (Cert.Layer.messages (F := Ideal) (V c main_v38) (V c main_v39)) (fun t _ => flushed_eq V c t) (cover)

end Region

end Cert.KernelIdeal.Scaling

end
-- ==== Proof.LibConcatCongr.lean ====
/-
  A TWO-PIECE CONCATENATION RESPECTS EQUALITY OF ITS PIECES, in the form of a congruence rule for the simplifier. Each
  piece of a concatenation is the second component of a pair whose first component is the piece's shape, so a
  rewriting pass does not enter it on its own; with this rule it does, and a chain of host operations that ends in a
  concatenation is read in one pass.
-/
import Idealize.ShloMosaic.PureOps.ShapeOps

namespace Cert.LibConcatCongr

open Idealize.ShloMosaic

/-- Two pieces joined along an axis: equal pieces give equal joins. (Not tagged here: a module that wants the
    simplifier to use it says so locally.) -/
theorem concatenate_pair_congr {α : Type} {t s₁ s₂ : Shape} (a : Fin t.rank) (x₁ x₁' : s₁.Idx → α)
    (x₂ x₂' : s₂.Idx → α) (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

end Cert.LibConcatCongr
-- ==== Proof.KernelValue.lean ====
/-
  The idealized kernel's result is the layer of its arguments.

  The run's last memory is read backwards through the segments. The last stretch of host operations sums the
  second region's output into the target nodes and adds the bias: `aggregate`. The second region's output is its two
  inputs' product, `messages`. Those inputs, and the target nodes, are what the middle stretches of host operations
  make of the edge list and of the first region's output: `sourceRows`, `edgeWeightColumn`, `dst`. The first region's
  output is the product x·W. Neither region and no host operation writes an argument, so at every boundary the
  arguments are as launched.

  What the host operations do is the same for every float arithmetic, and is read here for any; only the two regions'
  outputs are read on the extended reals.
-/
import proofs.«163691_j3607772529056_2_alg».proof.Proof.KernelRun
import proofs.«163691_j3607772529056_2_alg».proof.Proof.Product
import proofs.«163691_j3607772529056_2_alg».proof.Proof.Scaling
import proofs.«163691_j3607772529056_2_alg».proof.Proof.Layer
import proofs.«163691_j3607772529056_2_alg».proof.Proof.LibConcatCongr
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Result

open Cert.KernelIdeal Cert.KernelIdeal.Gen

attribute [local congr] Cert.LibConcatCongr.concatenate_pair_congr

section AnyArithmetic

variable {F : FTy → Type} [FloatOps F]
variable (m : (ℓ : Loc nD τ sig) → Buf (Elt F) ℓ) (ρ : Dev nD → PrngReg)

/-! ## After the first region -/

/-- The edge list is not one of the first region's arrays. -/
theorem afterProduct_arg1 (c : Dev nD) : W1 m ρ c (Proc.devRef .tc main_arg1) = m ((c.tc : Thread nD τ).loc main_arg1) :=
  W1_of_ne m ρ c main_arg1 (by decide)

/-- Nor is the bias. -/
theorem afterProduct_arg3 (c : Dev nD) : W1 m ρ c (Proc.devRef .tc main_arg3) = m ((c.tc : Thread nD τ).loc main_arg3) :=
  W1_of_ne m ρ c main_arg3 (by decide)

/-! ## After the middle host operations (the second region's entry) -/

set_option maxHeartbeats 2000000 in
/-- The target nodes. -/
theorem beforeScaling_v7 (c : Dev nD) : W4 m ρ c (Proc.devRef .tc main_v7)
    = Cert.Layer.dst (F := F) (m ((c.tc : Thread nD τ).loc main_arg1)) := by
  rw [← afterProduct_arg1 m ρ c]
  show StableHlo.after hostOps1_2 (StableHlo.after hostOps1_1 (StableHlo.after hostOps1 (W1 m ρ c))) (Proc.devRef .tc main_v7) = _
  after_results_simp
  rfl

set_option maxHeartbeats 2000000 in
/-- The bias is untouched. -/
theorem beforeScaling_arg3 (c : Dev nD) : W4 m ρ c (Proc.devRef .tc main_arg3) = m ((c.tc : Thread nD τ).loc main_arg3) := by
  rw [← afterProduct_arg3 m ρ c]
  show StableHlo.after hostOps1_2 (StableHlo.after hostOps1_1 (StableHlo.after hostOps1 (W1 m ρ c))) (Proc.devRef .tc main_arg3) = _
  after_results_simp

set_option maxHeartbeats 2000000 in
/-- The second region's first input: the rows, at the edges' sources, of what the first region left. -/
theorem beforeScaling_v38 (c : Dev nD) : W4 m ρ c (Proc.devRef .tc main_v38)
    = Cert.Layer.sourceRows (F := F) (m ((c.tc : Thread nD τ).loc main_arg1)) (W1 m ρ c (Proc.devRef .tc main_v0)) := by
  rw [← afterProduct_arg1 m ρ c]
  show StableHlo.after hostOps1_2 (StableHlo.after hostOps1_1 (StableHlo.after hostOps1 (W1 m ρ c))) (Proc.devRef .tc main_v38) = _
  after_results_simp
  rfl

set_option maxHeartbeats 2000000 in
/-- The second region's second input: the edges' weights as a column. -/
theorem beforeScaling_v39 (c : Dev nD) : W4 m ρ c (Proc.devRef .tc main_v39)
    = Cert.Layer.edgeWeightColumn (F := F) (m ((c.tc : Thread nD τ).loc main_arg1)) := by
  rw [← afterProduct_arg1 m ρ c]
  show StableHlo.after hostOps1_2 (StableHlo.after hostOps1_1 (StableHlo.after hostOps1 (W1 m ρ c))) (Proc.devRef .tc main_v39) = _
  after_results_simp
  rfl

/-! ## After the second region -/

/-- The target nodes are not one of the second region's arrays. -/
theorem afterScaling_v7 (c : Dev nD) : W5 m ρ c (Proc.devRef .tc main_v7)
    = Cert.Layer.dst (F := F) (m ((c.tc : Thread nD τ).loc main_arg1)) :=
  (W5_of_ne m ρ c main_v7 (by decide)).trans (beforeScaling_v7 m ρ c)

/-- Nor is the bias. -/
theorem afterScaling_arg3 (c : Dev nD) : W5 m ρ c (Proc.devRef .tc main_arg3) = m ((c.tc : Thread nD τ).loc main_arg3) :=
  (W5_of_ne m ρ c main_arg3 (by decide)).trans (beforeScaling_arg3 m ρ c)

/-! ## After the last host operations -/

/-- The result buffer holds the second region's output summed into the target nodes, plus the bias. -/
theorem result_aggregate (c : Dev nD) : W6 m ρ c (Proc.devRef .tc main_v46)
    = Cert.Layer.aggregate (F := F) (W5 m ρ c (Proc.devRef .tc main_v7)) (W5 m ρ c (Proc.devRef .tc main_arg3))
        (W5 m ρ c (Proc.devRef .tc main_v40)) := by
  show StableHlo.after hostOps2 (W5 m ρ c) (Proc.devRef .tc main_v46) = _
  after_results
  rfl

end AnyArithmetic

section OnTheExtendedReals

variable (m : (ℓ : Loc nD τ sig) → Buf (Elt Ideal) ℓ) (ρ : Dev nD → PrngReg)

/-- The first region leaves x·W in its output array. -/
theorem afterProduct_v0 (c : Dev nD) : W1 m ρ c (Proc.devRef .tc main_v0)
    = Product.times (m ((c.tc : Thread nD τ).loc main_arg0)) (m ((c.tc : Thread nD τ).loc main_arg2)) :=
  (W1_arr m ρ c 2).trans (Product.final (V0 m ρ) c)

/-- The second region leaves the scaled rows in its output array. -/
theorem afterScaling_v40 (c : Dev nD) : W5 m ρ c (Proc.devRef .tc main_v40)
    = Cert.Layer.messages (F := Ideal)
        (Cert.Layer.sourceRows (F := Ideal) (m ((c.tc : Thread nD τ).loc main_arg1))
          (Product.times (m ((c.tc : Thread nD τ).loc main_arg0)) (m ((c.tc : Thread nD τ).loc main_arg2))))
        (Cert.Layer.edgeWeightColumn (F := Ideal) (m ((c.tc : Thread nD τ).loc main_arg1))) := by
  refine (W5_arr m ρ c 2).trans ((Scaling.final (V4 m ρ) c).trans ?_)
  show Cert.Layer.messages (F := Ideal) (W4 m ρ c (Proc.devRef .tc main_v38)) (W4 m ρ c (Proc.devRef .tc main_v39)) = _
  rw [beforeScaling_v38, beforeScaling_v39, afterProduct_v0]

/-- The result buffer holds the layer of the four arguments. -/
theorem result_eq (c : Dev nD) : W6 m ρ c (Proc.devRef .tc main_v46)
    = Cert.Layer.layer (F := Ideal) (m ((c.tc : Thread nD τ).loc main_arg0)) (m ((c.tc : Thread nD τ).loc main_arg1))
        (m ((c.tc : Thread nD τ).loc main_arg2)) (m ((c.tc : Thread nD τ).loc main_arg3)) := by
  rw [result_aggregate, afterScaling_v40, afterScaling_v7, afterScaling_arg3]
  rfl

/-- Every weakly fair execution of the idealized kernel terminates with its result at the layer of its arguments and
    the arguments unchanged. -/
theorem run : θ_run defs (onTc (τ := τ) (main (F := Ideal))) ⟨m, fun _ => 0, ρ⟩ (fun r => ∀ c : Dev nD,
      r.2.mem ((c.tc : Thread nD τ).loc main_v46)
        = Cert.Layer.layer (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_named (F := Ideal) m ρ)

end OnTheExtendedReals

end Cert.KernelIdeal.Result

end
-- ==== Proof.ReferenceValue.lean ====
/-
  The idealized reference's result is the layer of its arguments.

  The reference is one line of host operations; its result, as the composed term of those operations applied to the
  launch contents of the arguments, is the layer's formula letter for letter: the contraction of x with W gathered at
  the edges' sources, times the edge weights spread over the features, summed into the target nodes, plus the bias.
-/
import proofs.«163691_j3607772529056_2_alg».proof.Proof.RefRunPatched
import proofs.«163691_j3607772529056_2_alg».proof.Proof.Gen.KernelIdeal
import proofs.«163691_j3607772529056_2_alg».proof.Proof.Layer
import Idealize.ShloMosaic.PureOps.Ideal

set_option maxRecDepth 16384

noncomputable section

open Idealize.ShloMosaic Idealize.ShloMosaic.TcCoe Idealize.SL.Sem

namespace Cert.ReferenceIdeal.Result

open Cert.ReferenceIdeal Cert.ReferenceIdeal.ValueP

set_option maxHeartbeats 2000000 in
/-- The reference run's result term is the layer of the arguments' launch contents. -/
theorem result_eq (m : (ℓ : Loc nD τ sig) → Buf (Elt Ideal) ℓ) (c : Dev nD) :
    res_main_v47 (F := Ideal) m c
      = Cert.Layer.layer (F := Ideal) (m ((c.tc : Thread nD τ).loc main_arg0)) (m ((c.tc : Thread nD τ).loc main_arg1))
          (m ((c.tc : Thread nD τ).loc main_arg2)) (m ((c.tc : Thread nD τ).loc main_arg3)) := by
  unfold res_main_v47
  rfl

end Cert.ReferenceIdeal.Result

end
-- ==== Proof.lean ====
/-
  The certificate of a graph-convolution layer: a kernel in two pipelined regions against its plain reference.

  Both programs compute, on the extended reals, out = b + Σ over edges into a node of (x·W)(source) · d(source) · d(target),
  d the inverse square root of the in-degree (self loops included) where that is positive and zero elsewhere. They share
  every host operation on the edge list; the kernel differs in two places only. It forms x·W on the matrix unit, ten
  thousand rows per grid point into a zero accumulator, where the reference uses one contraction: the same sum over the
  128 input features, entry by entry. And it multiplies the gathered rows by the edge weights ten thousand edges per
  grid point, where the reference spreads the weight column and multiplies once: the same product, entry by entry.
  Neither step needs any law beyond reading both sides at an index, so the precondition (finite inputs) is not used.

  The frames of the two kernel programs are the generated ones; the reference's frame is its run with the result
  dropped. No rewrite was applied in idealizing the kernel, so there is nothing to preserve.
-/
import proofs.«163691_j3607772529056_2_alg».proof.Defs
import proofs.«163691_j3607772529056_2_alg».proof.Proof.Gen.Kernel
import proofs.«163691_j3607772529056_2_alg».proof.Proof.Gen.Kernel.Skeleton
import proofs.«163691_j3607772529056_2_alg».proof.Proof.Gen.Kernel.Launch
import proofs.«163691_j3607772529056_2_alg».proof.Proof.Gen.Kernel.Points
import proofs.«163691_j3607772529056_2_alg».proof.Proof.Gen.Kernel.Frame
import proofs.«163691_j3607772529056_2_alg».proof.Proof.Gen.KernelIdeal
import proofs.«163691_j3607772529056_2_alg».proof.Proof.Gen.KernelIdeal.Skeleton
import proofs.«163691_j3607772529056_2_alg».proof.Proof.Gen.KernelIdeal.Launch
import proofs.«163691_j3607772529056_2_alg».proof.Proof.Gen.KernelIdeal.Points
import proofs.«163691_j3607772529056_2_alg».proof.Proof.Gen.KernelIdeal.Frame
import proofs.«163691_j3607772529056_2_alg».proof.Proof.Gen.ReferenceIdeal
import proofs.«163691_j3607772529056_2_alg».proof.Proof.Gen.Pre_finite_inputs
import proofs.«163691_j3607772529056_2_alg».proof.Proof.KernelValue
import proofs.«163691_j3607772529056_2_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end with the layer of those arguments in their result. -/
theorem algebraic : Cert.algebraic_KernelIdeal_ReferenceIdeal := by
  intro m ρ m' ρ' _ hagree
  refine ⟨fun c => Cert.Layer.layer (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Result.result_eq m' c, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
